-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v110)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v110) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x75 : Shape := ⟨2, ![50000, 75]⟩
abbrev S2x800000 : Shape := ⟨2, ![2, 800000]⟩
abbrev S800000 : Shape := ⟨1, ![800000]⟩
abbrev S75x128 : Shape := ⟨2, ![75, 128]⟩
abbrev S3x128x128 : Shape := ⟨3, ![3, 128, 128]⟩
abbrev S3x128 : Shape := ⟨2, ![3, 128]⟩
abbrev S3 : Shape := ⟨1, ![3]⟩
abbrev S_ : Shape := ⟨0, ![]⟩

class Facts : Prop where
  bcast_S_S50000x75 : S_.BroadcastsInDim S50000x75 (![] : Fin 0 → Fin S50000x75.rank)
  reducesTo_S50000x75_S_d0_1 : S50000x75.ReducesTo [0, 1] S_
  h_S_ : 0 < S_.numel
  bcast_S_S800000 : S_.BroadcastsInDim S800000 (![] : Fin 0 → Fin S800000.rank)
  reducesTo_S800000_S_d0 : S800000.ReducesTo [0] S_
  bcast_S_S75x128 : S_.BroadcastsInDim S75x128 (![] : Fin 0 → Fin S75x128.rank)
  reducesTo_S75x128_S_d0_1 : S75x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg5 : FVec F S3x128 .f32) (main_arg6 : FVec F S3 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3 .f32 := Host.absf main_arg6
  let main_cst_8 : FVec F S_ .f32 := constant S_ .f32 0x7F800000#32
  let main_v25 : FVec F S3 .f32 := broadcastInDim S3 ![] bcast_S_S3 main_cst_8
  let main_v26 : IVec S3 1 := cmpf .olt main_v24 main_v25
  let main_c_9 : IVec S_ 1 := constantI S_ 1 1#1
  let main_v27 : IVec S_ 1 := (fun x v => Host.reduce IntOp.andi x v reducesTo_S3_S_d0 h_S_) main_v26 main_c_9
  let main_v28 : IVec S_ 1 := andi main_v23 main_v27
  main_v28

def fn {F : FTy → Type} [FloatOps F] (main_arg0 : FVec F S50000x75 .f32) (main_arg1 : IVec S2x800000 32) (main_arg2 : FVec F S800000 .f32) (main_arg3 : FVec F S75x128 .f32) (main_arg4 : FVec F S3x128x128 .f32) (main_arg5 : FVec F S3x128 .f32) (main_arg6 : FVec F S3 .f32) : IVec S_ 1 :=
  let main_v0 : FVec F S50000x75 .f32 := Host.absf main_arg0
  let main_cst : FVec F S_ .f32 := constant S_ .f32 0x7F800000#32
  let main_v1 : FVec F S50000x75 .f32 := broadcastInDim S50000x75 ![] bcast_S_S50000x75 main_cst
  let main_v2 : IVec S50000x75 1 := cmpf .olt main_v0 main_v1
  let main_c : IVec S_ 1 := constantI S_ 1 1#1
  let main_v3 : IVec S_ 1 := (fun x v => Host.reduce IntOp.andi x v reducesTo_S50000x75_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S75x128 .f32 := Host.absf main_arg3
  let main_cst_2 : FVec F S_ .f32 := constant S_ .f32 0x7F800000#32
  let main_v10 : FVec F S75x128 .f32 := broadcastInDim S75x128 ![] bcast_S_S75x128 main_cst_2
  let main_v11 : IVec S75x128 1 := cmpf .olt main_v9 main_v10
  let main_c_3 : IVec S_ 1 := constantI S_ 1 1#1
  let main_v12 : IVec S_ 1 := (fun x v => Host.reduce IntOp.andi x v reducesTo_S75x128_S_d0_1 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_v13 main_v16
-- ==== Kernel.lean ====
abbrev S50000x75 : Shape := ⟨2, ![50000, 75]⟩
abbrev S2x800000 : Shape := ⟨2, ![2, 800000]⟩
abbrev S800000 : Shape := ⟨1, ![800000]⟩
abbrev S75x128 : Shape := ⟨2, ![75, 128]⟩
abbrev S3x128x128 : Shape := ⟨3, ![3, 128, 128]⟩
abbrev S3x128 : Shape := ⟨2, ![3, 128]⟩
abbrev S3 : Shape := ⟨1, ![3]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S5000x75 : Shape := ⟨2, ![5000, 75]⟩
abbrev S5000x128 : Shape := ⟨2, ![5000, 128]⟩
abbrev S1x128x128 : Shape := ⟨3, ![1, 128, 128]⟩
abbrev S128x128 : Shape := ⟨2, ![128, 128]⟩
abbrev S850000x128 : Shape := ⟨2, ![850000, 128]⟩
abbrev S1x128 : Shape := ⟨2, ![1, 128]⟩
abbrev S128 : Shape := ⟨1, ![128]⟩
abbrev S1 : Shape := ⟨1, ![1]⟩

abbrev nBuf : Space → Nat
  | .hbm => 137
  | .vmem => 20
  | .smem => 0
  | _ => 0

abbrev hbmTy0_0 (i : Nat) : BufTy := match i % 128 with
  | 0 => ⟨S50000x75, .f32⟩
  | 1 => ⟨S2x800000, .i32⟩
  | 2 => ⟨S800000, .f32⟩
  | 3 => ⟨S75x128, .f32⟩
  | 4 => ⟨S3x128x128, .f32⟩
  | 5 => ⟨S3x128, .f32⟩
  | 6 => ⟨S3, .f32⟩
  | 7 => ⟨S1x800000, .i32⟩
  | 8 => ⟨S800000, .i32⟩
  | 9 => ⟨S1x800000, .i32⟩
  | 10 => ⟨S800000, .i32⟩
  | 11 => ⟨S50000, .i32⟩
  | 12 => ⟨S850000, .i32⟩
  | 13 => ⟨S850000, .i32⟩
  | 14 => ⟨S_, .f32⟩
  | 15 => ⟨S50000, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S50000x128, .f32⟩
  | 50 => ⟨S1x128x128, .f32⟩
  | 51 => ⟨S128x128, .f32⟩
  | 52 => ⟨S50000x128, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x128, .f32⟩
  | 62 => ⟨S850000x1, .f32⟩
  | 63 => ⟨S850000x128, .f32⟩
  | 64 => ⟨S850000x128, .f32⟩
  | 65 => ⟨S_, .f32⟩
  | 66 => ⟨S50000x128, .f32⟩
  | 67 => ⟨S850000x1, .i32⟩
  | 68 => ⟨S50000x128, .f32⟩
  | 69 => ⟨S1x128, .f32⟩
  | 70 => ⟨S128, .f32⟩
  | 71 => ⟨S1x128, .f32⟩
  | 72 => ⟨S50000x128, .f32⟩
  | 73 => ⟨S50000x128, .f32⟩
  | 74 => ⟨S1, .f32⟩
  | 75 => ⟨S_, .f32⟩
  | 76 => ⟨S50000x128, .f32⟩
  | 77 => ⟨S50000x128, .f32⟩
  | 78 => ⟨S50000x128, .f32⟩
  | 79 => ⟨S1x128x128, .f32⟩
  | 80 => ⟨S128x128, .f32⟩
  | 81 => ⟨S50000x128, .f32⟩
  | 82 => ⟨S_, .i32⟩
  | 83 => ⟨S850000, .i32⟩
  | 84 => ⟨S850000, .i1⟩
  | 85 => ⟨S_, .i32⟩
  | 86 => ⟨S850000, .i32⟩
  | 87 => ⟨S850000, .i32⟩
  | 88 => ⟨S850000, .i32⟩
  | 89 => ⟨S850000x1, .i32⟩
  | 90 => ⟨S850000x128, .f32⟩
  | 91 => ⟨S850000x1, .f32⟩
  | 92 => ⟨S850000x128, .f32⟩
  | 93 => ⟨S850000x128, .f32⟩
  | 94 => ⟨S_, .f32⟩
  | 95 => ⟨S50000x128, .f32⟩
  | 96 => ⟨S850000x1, .i32⟩
  | 97 => ⟨S50000x128, .f32⟩
  | 98 => ⟨S1x128, .f32⟩
  | 99 => ⟨S128, .f32⟩
  | 100 => ⟨S1x128, .f32⟩
  | 101 => ⟨S50000x128, .f32⟩
  | 102 => ⟨S50000x128, .f32⟩
  | 103 => ⟨S1, .f32⟩
  | 104 => ⟨S_, .f32⟩
  | 105 => ⟨S50000x128, .f32⟩
  | 106 => ⟨S50000x128, .f32⟩
  | 107 => ⟨S50000x128, .f32⟩
  | 108 => ⟨S1x128x128, .f32⟩
  | 109 => ⟨S128x128, .f32⟩
  | 110 => ⟨S50000x128, .f32⟩
  | 111 => ⟨S_, .i32⟩
  | 112 => ⟨S850000, .i32⟩
  | 113 => ⟨S850000, .i1⟩
  | 114 => ⟨S_, .i32⟩
  | 115 => ⟨S850000, .i32⟩
  | 116 => ⟨S850000, .i32⟩
  | 117 => ⟨S850000, .i32⟩
  | 118 => ⟨S850000x1, .i32⟩
  | 119 => ⟨S850000x128, .f32⟩
  | 120 => ⟨S850000x1, .f32⟩
  | 121 => ⟨S850000x128, .f32⟩
  | 122 => ⟨S850000x128, .f32⟩
  | 123 => ⟨S_, .f32⟩
  | 124 => ⟨S50000x128, .f32⟩
  | 125 => ⟨S850000x1, .i32⟩
  | 126 => ⟨S50000x128, .f32⟩
  | 127 => ⟨S1x128, .f32⟩
  | _ => ⟨S50000x75, .f32⟩

abbrev hbmTy0_1 (i : Nat) : BufTy := match i % 128 with
  | 0 => ⟨S128, .f32⟩
  | 1 => ⟨S1x128, .f32⟩
  | 2 => ⟨S50000x128, .f32⟩
  | 3 => ⟨S50000x128, .f32⟩
  | 4 => ⟨S1, .f32⟩
  | 5 => ⟨S_, .f32⟩
  | 6 => ⟨S50000x128, .f32⟩
  | 7 => ⟨S50000x128, .f32⟩
  | 8 => ⟨S50000x128, .f32⟩
  | _ => ⟨S50000x75, .f32⟩

abbrev hbmTy (i : Nat) : BufTy := match i / 128 with
  | 0 => hbmTy0_0 i
  | 1 => hbmTy0_1 i
  | _ => ⟨S50000x75, .f32⟩

abbrev bufTy : (tb : Table) → Fin (tcTables nBuf tb) → BufTy
  | .hbm, ⟨i, _⟩ => hbmTy i
  | .local _ .vmem, ⟨0, _⟩ => ⟨S5000x75, .f32⟩
  | .local _ .vmem, ⟨1, _⟩ => ⟨S5000x75, .f32⟩
  | .local _ .vmem, ⟨2, _⟩ => ⟨S75x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S5000x128, .f32⟩
  | .local _ .vmem, ⟨19, _⟩ => ⟨S5000x128, .f32⟩
  | _, _ => ⟨S50000x75, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_6 : Ref sig .tc := ⟨.hbm, 53, rfl⟩
abbrev main_v36 : Ref sig .tc := ⟨.hbm, 54, rfl⟩
abbrev main_v37 : Ref sig .tc := ⟨.hbm, 55, rfl⟩
abbrev main_c_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_c_9 : Ref sig .tc := ⟨.hbm, 82, rfl⟩
abbrev main_v62 : Ref sig .tc := ⟨.hbm, 83, rfl⟩
abbrev main_v63 : Ref sig .tc := ⟨.hbm, 84, rfl⟩
abbrev main_c_10 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_11 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_c_12 : Ref sig .tc := ⟨.hbm, 111, rfl⟩
abbrev main_v88 : Ref sig .tc := ⟨.hbm, 112, rfl⟩
abbrev main_v89 : Ref sig .tc := ⟨.hbm, 113, rfl⟩
abbrev main_c_13 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_cst_14 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x75 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S75x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S5000x75_S5000x75_0_0 : ∀ a, (![0, 0] : Fin 2 → Nat) a + S5000x75.size a ≤ S5000x75.size a
  h_S5000x75 : 0 < S5000x75.numel
  bitsLt_bf16_f32 : FTy.bits .bf16 < FTy.bits .f32
  inb_S75x128_S75x128_0_0 : ∀ a, (![0, 0] : Fin 2 → Nat) a + S75x128.size a ≤ S75x128.size a
  h_S75x128 : 0 < S75x128.numel
  inb_S5000x128_S5000x128_0_0 : ∀ a, (![0, 0] : Fin 2 → Nat) a + S5000x128.size a ≤ S5000x128.size a
  h_S5000x128 : 0 < S5000x128.numel
  slices_S3x128x128_S1x128x128_0_0_0 : S3x128x128.Slices ![0, 0, 0] S1x128x128
  shapeCasts_S1x128x128_S128x128 : S1x128x128.ShapeCasts S128x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3_S1_0 : S3.Slices ![0] S1
  shapeCasts_S1_S_ : S1.ShapeCasts S_
  slices_S3x128x128_S1x128x128_1_0_0 : S3x128x128.Slices ![1, 0, 0] S1x128x128
  slices_S3x128_S1x128_1_0 : S3x128.Slices ![1, 0] S1x128
  slices_S3_S1_1 : S3.Slices ![1] S1
  slices_S3x128x128_S1x128x128_2_0_0 : S3x128x128.Slices ![2, 0, 0] S1x128x128
  slices_S3x128_S1x128_2_0 : S3x128.Slices ![2, 0] S1x128
  slices_S3_S1_2 : S3.Slices ![2] S1
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x75_S75x128_S5000x128_1_0_0_1_n_n_wf : DotDims.WF S5000x75 S75x128 S5000x128 [1] [0] [0] [1] [] []
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x75.size a ≤ S50000x75.size a
  hwx0_0 : ∀ i : grid0.Coords, EltTy.bits .f32 = 32 ∨ (Rect.block (s := S50000x75) S5000x75.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S75x128.size a ≤ S75x128.size a
  hwx0_1 : ∀ i : grid0.Coords, EltTy.bits .f32 = 32 ∨ (Rect.block (s := S75x128) S75x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x75_S75x128_S5000x128_1_0_0_1_n_n : DotDims S5000x75 S75x128 S5000x128 where
  lhsContracting := [1]
  rhsContracting := [0]
  lhsNonContracting := [0]
  rhsNonContracting := [1]
  lhsBatch := []
  rhsBatch := []
  wf := dot_S5000x75_S75x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x75.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S75x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v32) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v58) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v84) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v86) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v87) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x75 : Shape := ⟨2, ![50000, 75]⟩
abbrev S2x800000 : Shape := ⟨2, ![2, 800000]⟩
abbrev S800000 : Shape := ⟨1, ![800000]⟩
abbrev S75x128 : Shape := ⟨2, ![75, 128]⟩
abbrev S3x128x128 : Shape := ⟨3, ![3, 128, 128]⟩
abbrev S3x128 : Shape := ⟨2, ![3, 128]⟩
abbrev S3 : Shape := ⟨1, ![3]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S1x128x128 : Shape := ⟨3, ![1, 128, 128]⟩
abbrev S128x128 : Shape := ⟨2, ![128, 128]⟩
abbrev S850000x128 : Shape := ⟨2, ![850000, 128]⟩
abbrev S1x128 : Shape := ⟨2, ![1, 128]⟩
abbrev S128 : Shape := ⟨1, ![128]⟩
abbrev S1 : Shape := ⟨1, ![1]⟩

abbrev nBuf : Space → Nat
  | .hbm => 137
  | .vmem => 0
  | .smem => 0
  | _ => 0

abbrev hbmTy0_0 (i : Nat) : BufTy := match i % 128 with
  | 0 => ⟨S50000x75, .f32⟩
  | 1 => ⟨S2x800000, .i32⟩
  | 2 => ⟨S800000, .f32⟩
  | 3 => ⟨S75x128, .f32⟩
  | 4 => ⟨S3x128x128, .f32⟩
  | 5 => ⟨S3x128, .f32⟩
  | 6 => ⟨S3, .f32⟩
  | 7 => ⟨S1x800000, .i32⟩
  | 8 => ⟨S800000, .i32⟩
  | 9 => ⟨S1x800000, .i32⟩
  | 10 => ⟨S800000, .i32⟩
  | 11 => ⟨S50000, .i32⟩
  | 12 => ⟨S850000, .i32⟩
  | 13 => ⟨S850000, .i32⟩
  | 14 => ⟨S_, .f32⟩
  | 15 => ⟨S50000, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S50000x128, .f32⟩
  | 50 => ⟨S1x128x128, .f32⟩
  | 51 => ⟨S128x128, .f32⟩
  | 52 => ⟨S50000x128, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x128, .f32⟩
  | 62 => ⟨S850000x1, .f32⟩
  | 63 => ⟨S850000x128, .f32⟩
  | 64 => ⟨S850000x128, .f32⟩
  | 65 => ⟨S_, .f32⟩
  | 66 => ⟨S50000x128, .f32⟩
  | 67 => ⟨S850000x1, .i32⟩
  | 68 => ⟨S50000x128, .f32⟩
  | 69 => ⟨S1x128, .f32⟩
  | 70 => ⟨S128, .f32⟩
  | 71 => ⟨S1x128, .f32⟩
  | 72 => ⟨S50000x128, .f32⟩
  | 73 => ⟨S50000x128, .f32⟩
  | 74 => ⟨S1, .f32⟩
  | 75 => ⟨S_, .f32⟩
  | 76 => ⟨S50000x128, .f32⟩
  | 77 => ⟨S50000x128, .f32⟩
  | 78 => ⟨S50000x128, .f32⟩
  | 79 => ⟨S1x128x128, .f32⟩
  | 80 => ⟨S128x128, .f32⟩
  | 81 => ⟨S50000x128, .f32⟩
  | 82 => ⟨S_, .i32⟩
  | 83 => ⟨S850000, .i32⟩
  | 84 => ⟨S850000, .i1⟩
  | 85 => ⟨S_, .i32⟩
  | 86 => ⟨S850000, .i32⟩
  | 87 => ⟨S850000, .i32⟩
  | 88 => ⟨S850000, .i32⟩
  | 89 => ⟨S850000x1, .i32⟩
  | 90 => ⟨S850000x128, .f32⟩
  | 91 => ⟨S850000x1, .f32⟩
  | 92 => ⟨S850000x128, .f32⟩
  | 93 => ⟨S850000x128, .f32⟩
  | 94 => ⟨S_, .f32⟩
  | 95 => ⟨S50000x128, .f32⟩
  | 96 => ⟨S850000x1, .i32⟩
  | 97 => ⟨S50000x128, .f32⟩
  | 98 => ⟨S1x128, .f32⟩
  | 99 => ⟨S128, .f32⟩
  | 100 => ⟨S1x128, .f32⟩
  | 101 => ⟨S50000x128, .f32⟩
  | 102 => ⟨S50000x128, .f32⟩
  | 103 => ⟨S1, .f32⟩
  | 104 => ⟨S_, .f32⟩
  | 105 => ⟨S50000x128, .f32⟩
  | 106 => ⟨S50000x128, .f32⟩
  | 107 => ⟨S50000x128, .f32⟩
  | 108 => ⟨S1x128x128, .f32⟩
  | 109 => ⟨S128x128, .f32⟩
  | 110 => ⟨S50000x128, .f32⟩
  | 111 => ⟨S_, .i32⟩
  | 112 => ⟨S850000, .i32⟩
  | 113 => ⟨S850000, .i1⟩
  | 114 => ⟨S_, .i32⟩
  | 115 => ⟨S850000, .i32⟩
  | 116 => ⟨S850000, .i32⟩
  | 117 => ⟨S850000, .i32⟩
  | 118 => ⟨S850000x1, .i32⟩
  | 119 => ⟨S850000x128, .f32⟩
  | 120 => ⟨S850000x1, .f32⟩
  | 121 => ⟨S850000x128, .f32⟩
  | 122 => ⟨S850000x128, .f32⟩
  | 123 => ⟨S_, .f32⟩
  | 124 => ⟨S50000x128, .f32⟩
  | 125 => ⟨S850000x1, .i32⟩
  | 126 => ⟨S50000x128, .f32⟩
  | 127 => ⟨S1x128, .f32⟩
  | _ => ⟨S50000x75, .f32⟩

abbrev hbmTy0_1 (i : Nat) : BufTy := match i % 128 with
  | 0 => ⟨S128, .f32⟩
  | 1 => ⟨S1x128, .f32⟩
  | 2 => ⟨S50000x128, .f32⟩
  | 3 => ⟨S50000x128, .f32⟩
  | 4 => ⟨S1, .f32⟩
  | 5 => ⟨S_, .f32⟩
  | 6 => ⟨S50000x128, .f32⟩
  | 7 => ⟨S50000x128, .f32⟩
  | 8 => ⟨S50000x128, .f32⟩
  | _ => ⟨S50000x75, .f32⟩

abbrev hbmTy (i : Nat) : BufTy := match i / 128 with
  | 0 => hbmTy0_0 i
  | 1 => hbmTy0_1 i
  | _ => ⟨S50000x75, .f32⟩

abbrev bufTy : (tb : Table) → Fin (tcTables nBuf tb) → BufTy
  | .hbm, ⟨i, _⟩ => hbmTy i
  | _, _ => ⟨S50000x75, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_6 : Ref sig .tc := ⟨.hbm, 53, rfl⟩
abbrev main_v36 : Ref sig .tc := ⟨.hbm, 54, rfl⟩
abbrev main_v37 : Ref sig .tc := ⟨.hbm, 55, rfl⟩
abbrev main_c_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_c_9 : Ref sig .tc := ⟨.hbm, 82, rfl⟩
abbrev main_v62 : Ref sig .tc := ⟨.hbm, 83, rfl⟩
abbrev main_v63 : Ref sig .tc := ⟨.hbm, 84, rfl⟩
abbrev main_c_10 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_11 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_c_12 : Ref sig .tc := ⟨.hbm, 111, rfl⟩
abbrev main_v88 : Ref sig .tc := ⟨.hbm, 112, rfl⟩
abbrev main_v89 : Ref sig .tc := ⟨.hbm, 113, rfl⟩
abbrev main_c_13 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_cst_14 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  slices_S3x128x128_S1x128x128_0_0_0 : S3x128x128.Slices ![0, 0, 0] S1x128x128
  shapeCasts_S1x128x128_S128x128 : S1x128x128.ShapeCasts S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3_S1_0 : S3.Slices ![0] S1
  shapeCasts_S1_S_ : S1.ShapeCasts S_
  slices_S3x128x128_S1x128x128_1_0_0 : S3x128x128.Slices ![1, 0, 0] S1x128x128
  slices_S3x128_S1x128_1_0 : S3x128.Slices ![1, 0] S1x128
  slices_S3_S1_1 : S3.Slices ![1] S1
  slices_S3x128x128_S1x128x128_2_0_0 : S3x128x128.Slices ![2, 0, 0] S1x128x128
  slices_S3x128_S1x128_2_0 : S3x128.Slices ![2, 0] S1x128
  slices_S3_S1_2 : S3.Slices ![2] S1
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x75_S75x128_S50000x128_1_0_0_1_n_n_wf : DotDims.WF S50000x75 S75x128 S50000x128 [1] [0] [0] [1] [] []
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x75_S75x128_S50000x128_1_0_0_1_n_n : DotDims S50000x75 S75x128 S50000x128 where
  lhsContracting := [1]
  rhsContracting := [0]
  lhsNonContracting := [0]
  rhsNonContracting := [1]
  lhsBatch := []
  rhsBatch := []
  wf := dot_S50000x75_S75x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KernelRun.lean ====
/-
  The kernel program's run with its result named. The program is eleven segments (host stretches and the four
  kernel regions); run from any memory with zero counters every weakly fair execution terminates, and the final
  memory holds every unscoped buffer at the last boundary's contents. Read at the result buffer this says what the
  program returns; read at the argument buffers, that they are unchanged.
-/
import proofs.«124555_j77206332113764_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and the seven argument buffers as launched. -/
theorem run : θ_run defs (onTc (τ := τ) (main (F := F))) ⟨m, fun _ => 0, ρ⟩ (fun r => ∀ c : Dev nD,
      r.2.mem ((c.tc : Thread nD τ).loc main_v110) = W11 m ρ c (Proc.devRef .tc main_v110)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v110 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c)⟩)

end Cert.KernelIdeal.Whole

end
-- ==== Proof.LibPlainDot.lean ====
/-
  A plain matrix product [M, K] · [K, N] (the dimension numbers that contract the left operand's columns with the
  right operand's rows, no batch axis) read at a single entry on the extended reals: entry (p, q) is the sum over
  k of x (p, k) · y (k, q). This holds of the vector unit's product into a zero accumulator and of the host's
  dot_general alike, because at the ideal values both are the exact sum over the contraction index, and for
  these dimension numbers that index is one coordinate k < K.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable (M K N : ℕ)

/-- The left operand's row is the result's row. -/
theorem lhs_row (i : (⟨2, ![M, N]⟩ : Shape).Idx) (k : (DotDims.plain M K N).contr.Idx) :
    ((DotDims.plain M K N).lhsIdx i k 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem lhs_col (i : (⟨2, ![M, N]⟩ : Shape).Idx) (k : (DotDims.plain M K N).contr.Idx) :
    ((DotDims.plain M K N).lhsIdx i k 1).val = (k ⟨0, (show 0 < (DotDims.plain M K N).contr.rank from Nat.one_pos)⟩).val :=
  (DotDims.plain M K N).lhsIdx_val_of_single rfl i k

/-- The right operand's row is the contraction coordinate. -/
theorem rhs_row (i : (⟨2, ![M, N]⟩ : Shape).Idx) (k : (DotDims.plain M K N).contr.Idx) :
    ((DotDims.plain M K N).rhsIdx i k 0).val = (k ⟨0, (show 0 < (DotDims.plain M K N).contr.rank from Nat.one_pos)⟩).val :=
  (DotDims.plain M K N).rhsIdx_val_of_single rfl i k

/-- The right operand's column is the result's column. -/
theorem rhs_col (i : (⟨2, ![M, N]⟩ : Shape).Idx) (k : (DotDims.plain M K N).contr.Idx) :
    ((DotDims.plain M K N).rhsIdx i k 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index, re-indexed by its one coordinate. -/
theorem sum_contr (x : (⟨2, ![M, K]⟩ : Shape).Idx → EReal) (y : (⟨2, ![K, N]⟩ : Shape).Idx → EReal) (p : Fin M) (q : Fin N) :
    ∑ k : (DotDims.plain M K N).contr.Idx,
        x ((DotDims.plain M K N).lhsIdx (ix2 p q) k) * y ((DotDims.plain M K N).rhsIdx (ix2 p q) k)
      = ∑ k : Fin K, x (ix2 p k) * y (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

variable {M K N}

/-- The vector unit's product into the zero accumulator, at entry (p, q). The dimension record is any one that
    is the plain one (a program's own record is, by unfolding). -/
theorem matmul_zero_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    matmul D prec x y (constant (F := Ideal) ⟨2, ![M, N]⟩ .f32 0x00000000#32) (ix2 p q) = ∑ k : Fin K, x (ix2 p k) * y (ix2 k q) := by
  subst hD
  exact (Ideal.matmul_constant_zero_apply _ prec x y (ix2 p q)).trans (sum_contr M K N x y p q)

/-- The host's dot_general, at entry (p, q). -/
theorem dotGeneral_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    Host.dotGeneral D prec x y (ix2 p q) = ∑ k : Fin K, x (ix2 p k) * y (ix2 k q) := by
  subst hD
  exact (Ideal.dotGeneral_apply _ prec .single x y (ix2 p q)).trans (sum_contr M K N x y p q)

end Cert.Lib.PlainDot

end
-- ==== Proof.Products.lean ====
/-
  The two matrix products this network takes, as functions of whole arrays on the extended reals:
  a [50000, 75] array times a [75, 128] array (the input embedding), and a [50000, 128] array times a
  [128, 128] array (each layer's projection). Both are written as the host's dot_general with the plain
  dimension numbers, so entry (r, q) is the sum over k of X (r, k) · W (k, q).
-/
import proofs.«124555_j77206332113764_1_alg».proof.KernelIdeal
import Idealize.ShloMosaic.PureOps.Ideal

noncomputable section

namespace Cert.KernelIdeal.Blocks

open Idealize.ShloMosaic Cert.KernelIdeal

/-- A block's offset vector (0, 0) is the zero vector. -/
theorem hz : (![0, 0] : Fin 2 → Nat) = fun _ => 0 := funext fun a => by fin_cases a <;> rfl

/-- X · W for X of shape [50000, 75] and W of shape [75, 128]. -/
abbrev prodIn (X : S50000x75.Idx → Elt Ideal .f32) (W : S75x128.Idx → Elt Ideal .f32) : S50000x128.Idx → Elt Ideal .f32 :=
  Host.dotGeneral (F := Ideal) (φ₁ := .f32) (φ₂ := .f32) (DotDims.plain 50000 75 128) none X W

/-- X · W for X of shape [50000, 128] and W of shape [128, 128]. -/
abbrev prodLayer (X : S50000x128.Idx → Elt Ideal .f32) (W : S128x128.Idx → Elt Ideal .f32) : S50000x128.Idx → Elt Ideal .f32 :=
  Host.dotGeneral (F := Ideal) (φ₁ := .f32) (φ₂ := .f32) (DotDims.plain 50000 128 128) none X W

end Cert.KernelIdeal.Blocks

end
-- ==== Proof.Block0.lean ====
/-
  Grid point t of the embedding product reads rows 5000·t … 5000·t + 4999 of its left array and the whole of its
  right array, multiplies them (the change of float format before the product is the identity on the extended
  reals, and the product accumulates onto zero), and writes the result to the same rows of its output array.
  Row r of a matrix product depends on row r of the left operand alone, so what point t writes is rows
  5000·t … of the product X · W of the whole arrays; the ten points' row ranges tile all 50000 rows, hence the
  output array ends holding X · W.
-/
import proofs.«124555_j77206332113764_1_alg».proof.Proof.Gen.KernelIdeal.Frame
import proofs.«124555_j77206332113764_1_alg».proof.Proof.LibPlainDot
import proofs.«124555_j77206332113764_1_alg».proof.Proof.Products
import Idealize.ShloMosaic.Lib.Pipeline.Value
import Idealize.ShloMosaic.Lib.ValueIdx

noncomputable section

namespace Cert.KernelIdeal.Blocks

open Idealize.ShloMosaic Idealize.ShloMosaic.TcCoe Idealize.ShloMosaic.ValueIdx Idealize.SL.Sem
open Cert.KernelIdeal Cert.KernelIdeal.Gen Cert.Lib
open Idealize.ShloMosaic.Pipeline (Dat Cfg Window)

/-- If xb holds the 5000 rows of X that start at row o, and w is W, the body's value at (p, q) is entry
    (o + p, q) of X · W: both are the sum over k of X (o + p, k) · W (k, q). -/
theorem rows0 (o : ℕ) (xb : Vec Ideal S5000x75 .f32) (w : Vec Ideal S75x128 .f32) (X : FVec Ideal S50000x75 .f32)
    (W : FVec Ideal S75x128 .f32)
    (h : ∀ (p : Fin 5000) (r : Fin 50000), r.val = o + p.val → ∀ k : Fin 75, xb (ix2 p k) = X (ix2 r k))
    (hw : ∀ (k : Fin 75) (q : Fin 128), w (ix2 k q) = W (ix2 k q))
    (p : Fin 5000) (q : Fin 128) (r : Fin 50000) (hr : r.val = o + p.val) :
    k0_pay1 xb w (ix2 p q) = prodIn X W (ix2 r q) := by
  unfold k0_pay1
  refine ((PlainDot.matmul_zero_apply dot_S5000x75_S75x128_S5000x128_1_0_0_1_n_n rfl none _ _ p q).trans ?_).trans
    (PlainDot.dotGeneral_apply (DotDims.plain 50000 75 128) rfl none X W r q).symm
  refine Finset.sum_congr rfl fun k _ => ?_
  exact congrArg₂ (· * ·) (h p r hr k) (hw k q)

variable (V : (c : Dev nD) → (b : Ref sig .tc) → Buf (Elt Ideal) ((c : Thread nD τ).loc b))

/-- The printed index maps over the grid: the left operand's and the output's row blocks move together, every
    other block index is 0, and there are ten row blocks. -/
theorem idx0 : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every one of the ten row blocks is some point's. -/
theorem onto0 : ∀ q0 : Fin 10, ∃ t : Fin cfg0.N, win0_2.index t (0 : Fin 2) = q0.val :=
  (by decide +kernel : ∀ q0 : Fin 10, ∃ t : Fin grid0.N, win0_2.index t (0 : Fin 2) = q0.val)

/-- What point t writes back is block t of X · W, X and W the arrays as the region finds them. -/
theorem flushed0 (c : Dev nD) (t : Fin cfg0.N) :
    (dat0 (F := Ideal) V c).flushed 2 t = ((cfg0.win 2).blk t).view.read (Elt Ideal)
      (prodIn (V c main_arg0) (V c main_arg3)) := by
  show (cfg0.win 2).cut (grid0.coords t) ((dat0 V c).after 2 t) = _
  rw [after0_2]
  unfold out0_2
  rw [View.canon_unit_zero hz]
  simp only [View.ld_unit_zero (S := S5000x75) hz, View.ld_unit_zero (S := S75x128) hz]
  obtain ⟨e0, e1, e2, e3, e4, e5⟩ := idx0 t
  funext j
  obtain ⟨p, q, rfl⟩ : ∃ (p : Fin 5000) (q : Fin 128), j = ix2 p q := ⟨j 0, j 1, eq_ix2 j⟩
  have hr : win0_2.index t (0 : Fin 2) * 5000 + p.val < 50000 := by have := p.isLt; omega
  have hemb : ((cfg0.win 2).blk t).view.emb (ix2 p q)
      = ix2 (⟨win0_2.index t (0 : Fin 2) * 5000 + p.val, hr⟩ : Fin 50000) q := by
    funext a; apply Fin.ext
    match a with
    | ⟨0, _⟩ => show win0_2.index t (0 : Fin 2) * 5000 + 1 * p.val = win0_2.index t (0 : Fin 2) * 5000 + p.val; omega
    | ⟨1, _⟩ => show win0_2.index t (1 : Fin 2) * 128 + 1 * q.val = q.val; omega
  show k0_pay1 (iblk0 V c 0 t) (iblk0 V c 1 t) (ix2 p q)
    = prodIn (V c main_arg0) (V c main_arg3) (((cfg0.win 2).blk t).view.emb (ix2 p q))
  rw [hemb]
  refine rows0 (win0_2.index t (0 : Fin 2) * 5000) (iblk0 V c 0 t) (iblk0 V c 1 t) (V c main_arg0) (V c main_arg3) ?_ ?_ p q _ rfl
  · intro p' r' hr' k
    show V c main_arg0 (((cfg0.win 0).blk t).view.emb (ix2 p' k)) = V c main_arg0 (ix2 r' k)
    refine congrArg _ (funext fun a => Fin.ext ?_)
    match a with
    | ⟨0, _⟩ => show win0_0.index t (0 : Fin 2) * 5000 + 1 * p'.val = r'.val; omega
    | ⟨1, _⟩ => show win0_0.index t (1 : Fin 2) * 75 + 1 * k.val = k.val; omega
  · intro k q'
    show V c main_arg3 (((cfg0.win 1).blk t).view.emb (ix2 k q')) = V c main_arg3 (ix2 k q')
    refine congrArg _ (funext fun a => Fin.ext ?_)
    match a with
    | ⟨0, _⟩ => show win0_1.index t (0 : Fin 2) * 75 + 1 * k.val = k.val; omega
    | ⟨1, _⟩ => show win0_1.index t (1 : Fin 2) * 128 + 1 * q'.val = q'.val; omega

/-- An index of the output array is in point t's block iff each coordinate is in the block's range. -/
theorem mem_blk0 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v32).slice (win0_2.rect t)).set ↔ _
  rw [View.set_slice_whole, Rect.mem_set_unit]
  exact Iff.rfl

/-- Row r of the output array is written by the point whose row block is r / 5000. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := onto0 ⟨(i 0).val / 5000, by omega⟩
  have ht' : win0_2.index t (0 : Fin 2) = (i 0).val / 5000 := ht
  obtain ⟨e0, e1, e2, e3, e4, e5⟩ := idx0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region is X · W of the two input arrays as the region finds them. -/
theorem array0 (c : Dev nD) :
    (dat0 (F := Ideal) V c).arrAt 2 cfg0.N = prodIn (V c main_arg0) (V c main_arg3) :=
  (dat0 V c).arrAt_eq_of_cover 2 _ (fun t _ => flushed0 V c t) cover0

end Cert.KernelIdeal.Blocks

end
-- ==== Proof.Block1.lean ====
/-
  Grid point t of the first layer's product reads rows 5000·t … 5000·t + 4999 of its left array and the whole of its
  right array, multiplies them (the change of float format before the product is the identity on the extended
  reals, and the product accumulates onto zero), and writes the result to the same rows of its output array.
  Row r of a matrix product depends on row r of the left operand alone, so what point t writes is rows
  5000·t … of the product X · W of the whole arrays; the ten points' row ranges tile all 50000 rows, hence the
  output array ends holding X · W.
-/
import proofs.«124555_j77206332113764_1_alg».proof.Proof.Gen.KernelIdeal.Frame
import proofs.«124555_j77206332113764_1_alg».proof.Proof.LibPlainDot
import proofs.«124555_j77206332113764_1_alg».proof.Proof.Products
import Idealize.ShloMosaic.Lib.Pipeline.Value
import Idealize.ShloMosaic.Lib.ValueIdx

noncomputable section

namespace Cert.KernelIdeal.Blocks

open Idealize.ShloMosaic Idealize.ShloMosaic.TcCoe Idealize.ShloMosaic.ValueIdx Idealize.SL.Sem
open Cert.KernelIdeal Cert.KernelIdeal.Gen Cert.Lib
open Idealize.ShloMosaic.Pipeline (Dat Cfg Window)

/-- If xb holds the 5000 rows of X that start at row o, and w is W, the body's value at (p, q) is entry
    (o + p, q) of X · W: both are the sum over k of X (o + p, k) · W (k, q). -/
theorem rows1 (o : ℕ) (xb : Vec Ideal S5000x128 .f32) (w : Vec Ideal S128x128 .f32) (X : FVec Ideal S50000x128 .f32)
    (W : FVec Ideal S128x128 .f32)
    (h : ∀ (p : Fin 5000) (r : Fin 50000), r.val = o + p.val → ∀ k : Fin 128, xb (ix2 p k) = X (ix2 r k))
    (hw : ∀ (k : Fin 128) (q : Fin 128), w (ix2 k q) = W (ix2 k q))
    (p : Fin 5000) (q : Fin 128) (r : Fin 50000) (hr : r.val = o + p.val) :
    k1_pay1 xb w (ix2 p q) = prodLayer X W (ix2 r q) := by
  unfold k1_pay1
  refine ((PlainDot.matmul_zero_apply dot_S5000x128_S128x128_S5000x128_1_0_0_1_n_n rfl none _ _ p q).trans ?_).trans
    (PlainDot.dotGeneral_apply (DotDims.plain 50000 128 128) rfl none X W r q).symm
  refine Finset.sum_congr rfl fun k _ => ?_
  show shapeCast S5000x128 xb shapeCasts_S5000x128_S5000x128 (ix2 p k) * shapeCast S128x128 w shapeCasts_S128x128_S128x128 (ix2 k q) = _
  rw [shapeCast_self, shapeCast_self]
  exact congrArg₂ (· * ·) (h p r hr k) (hw k q)

variable (V : (c : Dev nD) → (b : Ref sig .tc) → Buf (Elt Ideal) ((c : Thread nD τ).loc b))

/-- The printed index maps over the grid: the left operand's and the output's row blocks move together, every
    other block index is 0, and there are ten row blocks. -/
theorem idx1 : ∀ t : Fin cfg1.N, win1_0.index t (0 : Fin 2) = win1_2.index t (0 : Fin 2)
    ∧ win1_0.index t (1 : Fin 2) = 0
    ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every one of the ten row blocks is some point's. -/
theorem onto1 : ∀ q0 : Fin 10, ∃ t : Fin cfg1.N, win1_2.index t (0 : Fin 2) = q0.val :=
  (by decide +kernel : ∀ q0 : Fin 10, ∃ t : Fin grid1.N, win1_2.index t (0 : Fin 2) = q0.val)

/-- What point t writes back is block t of X · W, X and W the arrays as the region finds them. -/
theorem flushed1 (c : Dev nD) (t : Fin cfg1.N) :
    (dat1 (F := Ideal) V c).flushed 2 t = ((cfg1.win 2).blk t).view.read (Elt Ideal)
      (prodLayer (V c main_v32) (V c main_v34)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  obtain ⟨e0, e1, e2, e3, e4, e5⟩ := idx1 t
  funext j
  obtain ⟨p, q, rfl⟩ : ∃ (p : Fin 5000) (q : Fin 128), j = ix2 p q := ⟨j 0, j 1, eq_ix2 j⟩
  have hr : win1_2.index t (0 : Fin 2) * 5000 + p.val < 50000 := by have := p.isLt; omega
  have hemb : ((cfg1.win 2).blk t).view.emb (ix2 p q)
      = ix2 (⟨win1_2.index t (0 : Fin 2) * 5000 + p.val, hr⟩ : Fin 50000) q := by
    funext a; apply Fin.ext
    match a with
    | ⟨0, _⟩ => show win1_2.index t (0 : Fin 2) * 5000 + 1 * p.val = win1_2.index t (0 : Fin 2) * 5000 + p.val; omega
    | ⟨1, _⟩ => show win1_2.index t (1 : Fin 2) * 128 + 1 * q.val = q.val; omega
  show k1_pay1 (iblk1 V c 0 t) (iblk1 V c 1 t) (ix2 p q)
    = prodLayer (V c main_v32) (V c main_v34) (((cfg1.win 2).blk t).view.emb (ix2 p q))
  rw [hemb]
  refine rows1 (win1_2.index t (0 : Fin 2) * 5000) (iblk1 V c 0 t) (iblk1 V c 1 t) (V c main_v32) (V c main_v34) ?_ ?_ p q _ rfl
  · intro p' r' hr' k
    show V c main_v32 (((cfg1.win 0).blk t).view.emb (ix2 p' k)) = V c main_v32 (ix2 r' k)
    refine congrArg _ (funext fun a => Fin.ext ?_)
    match a with
    | ⟨0, _⟩ => show win1_0.index t (0 : Fin 2) * 5000 + 1 * p'.val = r'.val; omega
    | ⟨1, _⟩ => show win1_0.index t (1 : Fin 2) * 128 + 1 * k.val = k.val; omega
  · intro k q'
    show V c main_v34 (((cfg1.win 1).blk t).view.emb (ix2 k q')) = V c main_v34 (ix2 k q')
    refine congrArg _ (funext fun a => Fin.ext ?_)
    match a with
    | ⟨0, _⟩ => show win1_1.index t (0 : Fin 2) * 128 + 1 * k.val = k.val; omega
    | ⟨1, _⟩ => show win1_1.index t (1 : Fin 2) * 128 + 1 * q'.val = q'.val; omega

/-- An index of the output array is in point t's block iff each coordinate is in the block's range. -/
theorem mem_blk1 (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v35).slice (win1_2.rect t)).set ↔ _
  rw [View.set_slice_whole, Rect.mem_set_unit]
  exact Iff.rfl

/-- Row r of the output array is written by the point whose row block is r / 5000. -/
theorem cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := onto1 ⟨(i 0).val / 5000, by omega⟩
  have ht' : win1_2.index t (0 : Fin 2) = (i 0).val / 5000 := ht
  obtain ⟨e0, e1, e2, e3, e4, e5⟩ := idx1 t
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The output array after the region is X · W of the two input arrays as the region finds them. -/
theorem array1 (c : Dev nD) :
    (dat1 (F := Ideal) V c).arrAt 2 cfg1.N = prodLayer (V c main_v32) (V c main_v34) :=
  (dat1 V c).arrAt_eq_of_cover 2 _ (fun t _ => flushed1 V c t) cover1

end Cert.KernelIdeal.Blocks

end
-- ==== Proof.Block2.lean ====
/-
  Grid point t of the second layer's product reads rows 5000·t … 5000·t + 4999 of its left array and the whole of its
  right array, multiplies them (the change of float format before the product is the identity on the extended
  reals, and the product accumulates onto zero), and writes the result to the same rows of its output array.
  Row r of a matrix product depends on row r of the left operand alone, so what point t writes is rows
  5000·t … of the product X · W of the whole arrays; the ten points' row ranges tile all 50000 rows, hence the
  output array ends holding X · W.
-/
import proofs.«124555_j77206332113764_1_alg».proof.Proof.Gen.KernelIdeal.Frame
import proofs.«124555_j77206332113764_1_alg».proof.Proof.LibPlainDot
import proofs.«124555_j77206332113764_1_alg».proof.Proof.Products
import Idealize.ShloMosaic.Lib.Pipeline.Value
import Idealize.ShloMosaic.Lib.ValueIdx

noncomputable section

namespace Cert.KernelIdeal.Blocks

open Idealize.ShloMosaic Idealize.ShloMosaic.TcCoe Idealize.ShloMosaic.ValueIdx Idealize.SL.Sem
open Cert.KernelIdeal Cert.KernelIdeal.Gen Cert.Lib
open Idealize.ShloMosaic.Pipeline (Dat Cfg Window)

/-- If xb holds the 5000 rows of X that start at row o, and w is W, the body's value at (p, q) is entry
    (o + p, q) of X · W: both are the sum over k of X (o + p, k) · W (k, q). -/
theorem rows2 (o : ℕ) (xb : Vec Ideal S5000x128 .f32) (w : Vec Ideal S128x128 .f32) (X : FVec Ideal S50000x128 .f32)
    (W : FVec Ideal S128x128 .f32)
    (h : ∀ (p : Fin 5000) (r : Fin 50000), r.val = o + p.val → ∀ k : Fin 128, xb (ix2 p k) = X (ix2 r k))
    (hw : ∀ (k : Fin 128) (q : Fin 128), w (ix2 k q) = W (ix2 k q))
    (p : Fin 5000) (q : Fin 128) (r : Fin 50000) (hr : r.val = o + p.val) :
    k2_pay1 xb w (ix2 p q) = prodLayer X W (ix2 r q) := by
  unfold k2_pay1
  refine ((PlainDot.matmul_zero_apply dot_S5000x128_S128x128_S5000x128_1_0_0_1_n_n rfl none _ _ p q).trans ?_).trans
    (PlainDot.dotGeneral_apply (DotDims.plain 50000 128 128) rfl none X W r q).symm
  refine Finset.sum_congr rfl fun k _ => ?_
  show shapeCast S5000x128 xb shapeCasts_S5000x128_S5000x128 (ix2 p k) * shapeCast S128x128 w shapeCasts_S128x128_S128x128 (ix2 k q) = _
  rw [shapeCast_self, shapeCast_self]
  exact congrArg₂ (· * ·) (h p r hr k) (hw k q)

variable (V : (c : Dev nD) → (b : Ref sig .tc) → Buf (Elt Ideal) ((c : Thread nD τ).loc b))

/-- The printed index maps over the grid: the left operand's and the output's row blocks move together, every
    other block index is 0, and there are ten row blocks. -/
theorem idx2 : ∀ t : Fin cfg2.N, win2_0.index t (0 : Fin 2) = win2_2.index t (0 : Fin 2)
    ∧ win2_0.index t (1 : Fin 2) = 0
    ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every one of the ten row blocks is some point's. -/
theorem onto2 : ∀ q0 : Fin 10, ∃ t : Fin cfg2.N, win2_2.index t (0 : Fin 2) = q0.val :=
  (by decide +kernel : ∀ q0 : Fin 10, ∃ t : Fin grid2.N, win2_2.index t (0 : Fin 2) = q0.val)

/-- What point t writes back is block t of X · W, X and W the arrays as the region finds them. -/
theorem flushed2 (c : Dev nD) (t : Fin cfg2.N) :
    (dat2 (F := Ideal) V c).flushed 2 t = ((cfg2.win 2).blk t).view.read (Elt Ideal)
      (prodLayer (V c main_v58) (V c main_v60)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨e0, e1, e2, e3, e4, e5⟩ := idx2 t
  funext j
  obtain ⟨p, q, rfl⟩ : ∃ (p : Fin 5000) (q : Fin 128), j = ix2 p q := ⟨j 0, j 1, eq_ix2 j⟩
  have hr : win2_2.index t (0 : Fin 2) * 5000 + p.val < 50000 := by have := p.isLt; omega
  have hemb : ((cfg2.win 2).blk t).view.emb (ix2 p q)
      = ix2 (⟨win2_2.index t (0 : Fin 2) * 5000 + p.val, hr⟩ : Fin 50000) q := by
    funext a; apply Fin.ext
    match a with
    | ⟨0, _⟩ => show win2_2.index t (0 : Fin 2) * 5000 + 1 * p.val = win2_2.index t (0 : Fin 2) * 5000 + p.val; omega
    | ⟨1, _⟩ => show win2_2.index t (1 : Fin 2) * 128 + 1 * q.val = q.val; omega
  show k2_pay1 (iblk2 V c 0 t) (iblk2 V c 1 t) (ix2 p q)
    = prodLayer (V c main_v58) (V c main_v60) (((cfg2.win 2).blk t).view.emb (ix2 p q))
  rw [hemb]
  refine rows2 (win2_2.index t (0 : Fin 2) * 5000) (iblk2 V c 0 t) (iblk2 V c 1 t) (V c main_v58) (V c main_v60) ?_ ?_ p q _ rfl
  · intro p' r' hr' k
    show V c main_v58 (((cfg2.win 0).blk t).view.emb (ix2 p' k)) = V c main_v58 (ix2 r' k)
    refine congrArg _ (funext fun a => Fin.ext ?_)
    match a with
    | ⟨0, _⟩ => show win2_0.index t (0 : Fin 2) * 5000 + 1 * p'.val = r'.val; omega
    | ⟨1, _⟩ => show win2_0.index t (1 : Fin 2) * 128 + 1 * k.val = k.val; omega
  · intro k q'
    show V c main_v60 (((cfg2.win 1).blk t).view.emb (ix2 k q')) = V c main_v60 (ix2 k q')
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * q'.val = q'.val; omega

/-- An index of the output array is in point t's block iff each coordinate is in the block's range. -/
theorem mem_blk2 (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v61).slice (win2_2.rect t)).set ↔ _
  rw [View.set_slice_whole, Rect.mem_set_unit]
  exact Iff.rfl

/-- Row r of the output array is written by the point whose row block is r / 5000. -/
theorem cover2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := onto2 ⟨(i 0).val / 5000, by omega⟩
  have ht' : win2_2.index t (0 : Fin 2) = (i 0).val / 5000 := ht
  obtain ⟨e0, e1, e2, e3, e4, e5⟩ := idx2 t
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The output array after the region is X · W of the two input arrays as the region finds them. -/
theorem array2 (c : Dev nD) :
    (dat2 (F := Ideal) V c).arrAt 2 cfg2.N = prodLayer (V c main_v58) (V c main_v60) :=
  (dat2 V c).arrAt_eq_of_cover 2 _ (fun t _ => flushed2 V c t) cover2

end Cert.KernelIdeal.Blocks

end
-- ==== Proof.Block3.lean ====
/-
  Grid point t of the third layer's product reads rows 5000·t … 5000·t + 4999 of its left array and the whole of its
  right array, multiplies them (the change of float format before the product is the identity on the extended
  reals, and the product accumulates onto zero), and writes the result to the same rows of its output array.
  Row r of a matrix product depends on row r of the left operand alone, so what point t writes is rows
  5000·t … of the product X · W of the whole arrays; the ten points' row ranges tile all 50000 rows, hence the
  output array ends holding X · W.
-/
import proofs.«124555_j77206332113764_1_alg».proof.Proof.Gen.KernelIdeal.Frame
import proofs.«124555_j77206332113764_1_alg».proof.Proof.LibPlainDot
import proofs.«124555_j77206332113764_1_alg».proof.Proof.Products
import Idealize.ShloMosaic.Lib.Pipeline.Value
import Idealize.ShloMosaic.Lib.ValueIdx

noncomputable section

namespace Cert.KernelIdeal.Blocks

open Idealize.ShloMosaic Idealize.ShloMosaic.TcCoe Idealize.ShloMosaic.ValueIdx Idealize.SL.Sem
open Cert.KernelIdeal Cert.KernelIdeal.Gen Cert.Lib
open Idealize.ShloMosaic.Pipeline (Dat Cfg Window)

/-- If xb holds the 5000 rows of X that start at row o, and w is W, the body's value at (p, q) is entry
    (o + p, q) of X · W: both are the sum over k of X (o + p, k) · W (k, q). -/
theorem rows3 (o : ℕ) (xb : Vec Ideal S5000x128 .f32) (w : Vec Ideal S128x128 .f32) (X : FVec Ideal S50000x128 .f32)
    (W : FVec Ideal S128x128 .f32)
    (h : ∀ (p : Fin 5000) (r : Fin 50000), r.val = o + p.val → ∀ k : Fin 128, xb (ix2 p k) = X (ix2 r k))
    (hw : ∀ (k : Fin 128) (q : Fin 128), w (ix2 k q) = W (ix2 k q))
    (p : Fin 5000) (q : Fin 128) (r : Fin 50000) (hr : r.val = o + p.val) :
    k3_pay1 xb w (ix2 p q) = prodLayer X W (ix2 r q) := by
  unfold k3_pay1
  refine ((PlainDot.matmul_zero_apply dot_S5000x128_S128x128_S5000x128_1_0_0_1_n_n rfl none _ _ p q).trans ?_).trans
    (PlainDot.dotGeneral_apply (DotDims.plain 50000 128 128) rfl none X W r q).symm
  refine Finset.sum_congr rfl fun k _ => ?_
  show shapeCast S5000x128 xb shapeCasts_S5000x128_S5000x128 (ix2 p k) * shapeCast S128x128 w shapeCasts_S128x128_S128x128 (ix2 k q) = _
  rw [shapeCast_self, shapeCast_self]
  exact congrArg₂ (· * ·) (h p r hr k) (hw k q)

variable (V : (c : Dev nD) → (b : Ref sig .tc) → Buf (Elt Ideal) ((c : Thread nD τ).loc b))

/-- The printed index maps over the grid: the left operand's and the output's row blocks move together, every
    other block index is 0, and there are ten row blocks. -/
theorem idx3 : ∀ t : Fin cfg3.N, win3_0.index t (0 : Fin 2) = win3_2.index t (0 : Fin 2)
    ∧ win3_0.index t (1 : Fin 2) = 0
    ∧ win3_1.index t (0 : Fin 2) = 0 ∧ win3_1.index t (1 : Fin 2) = 0
    ∧ win3_2.index t (1 : Fin 2) = 0 ∧ win3_2.index t (0 : Fin 2) ≤ 9 :=
  (by decide +kernel : ∀ t : Fin grid3.N, _)

/-- Every one of the ten row blocks is some point's. -/
theorem onto3 : ∀ q0 : Fin 10, ∃ t : Fin cfg3.N, win3_2.index t (0 : Fin 2) = q0.val :=
  (by decide +kernel : ∀ q0 : Fin 10, ∃ t : Fin grid3.N, win3_2.index t (0 : Fin 2) = q0.val)

/-- What point t writes back is block t of X · W, X and W the arrays as the region finds them. -/
theorem flushed3 (c : Dev nD) (t : Fin cfg3.N) :
    (dat3 (F := Ideal) V c).flushed 2 t = ((cfg3.win 2).blk t).view.read (Elt Ideal)
      (prodLayer (V c main_v84) (V c main_v86)) := by
  show (cfg3.win 2).cut (grid3.coords t) ((dat3 V c).after 2 t) = _
  rw [after3_2]
  unfold out3_2
  rw [View.canon_unit_zero hz]
  simp only [View.ld_unit_zero (S := S5000x128) hz, View.ld_unit_zero (S := S128x128) hz]
  obtain ⟨e0, e1, e2, e3, e4, e5⟩ := idx3 t
  funext j
  obtain ⟨p, q, rfl⟩ : ∃ (p : Fin 5000) (q : Fin 128), j = ix2 p q := ⟨j 0, j 1, eq_ix2 j⟩
  have hr : win3_2.index t (0 : Fin 2) * 5000 + p.val < 50000 := by have := p.isLt; omega
  have hemb : ((cfg3.win 2).blk t).view.emb (ix2 p q)
      = ix2 (⟨win3_2.index t (0 : Fin 2) * 5000 + p.val, hr⟩ : Fin 50000) q := by
    funext a; apply Fin.ext
    match a with
    | ⟨0, _⟩ => show win3_2.index t (0 : Fin 2) * 5000 + 1 * p.val = win3_2.index t (0 : Fin 2) * 5000 + p.val; omega
    | ⟨1, _⟩ => show win3_2.index t (1 : Fin 2) * 128 + 1 * q.val = q.val; omega
  show k3_pay1 (iblk3 V c 0 t) (iblk3 V c 1 t) (ix2 p q)
    = prodLayer (V c main_v84) (V c main_v86) (((cfg3.win 2).blk t).view.emb (ix2 p q))
  rw [hemb]
  refine rows3 (win3_2.index t (0 : Fin 2) * 5000) (iblk3 V c 0 t) (iblk3 V c 1 t) (V c main_v84) (V c main_v86) ?_ ?_ p q _ rfl
  · intro p' r' hr' k
    show V c main_v84 (((cfg3.win 0).blk t).view.emb (ix2 p' k)) = V c main_v84 (ix2 r' k)
    refine congrArg _ (funext fun a => Fin.ext ?_)
    match a with
    | ⟨0, _⟩ => show win3_0.index t (0 : Fin 2) * 5000 + 1 * p'.val = r'.val; omega
    | ⟨1, _⟩ => show win3_0.index t (1 : Fin 2) * 128 + 1 * k.val = k.val; omega
  · intro k q'
    show V c main_v86 (((cfg3.win 1).blk t).view.emb (ix2 k q')) = V c main_v86 (ix2 k q')
    refine congrArg _ (funext fun a => Fin.ext ?_)
    match a with
    | ⟨0, _⟩ => show win3_1.index t (0 : Fin 2) * 128 + 1 * k.val = k.val; omega
    | ⟨1, _⟩ => show win3_1.index t (1 : Fin 2) * 128 + 1 * q'.val = q'.val; omega

/-- An index of the output array is in point t's block iff each coordinate is in the block's range. -/
theorem mem_blk3 (t : Fin cfg3.N) (i : S50000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v87).slice (win3_2.rect t)).set ↔ _
  rw [View.set_slice_whole, Rect.mem_set_unit]
  exact Iff.rfl

/-- Row r of the output array is written by the point whose row block is r / 5000. -/
theorem cover3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := onto3 ⟨(i 0).val / 5000, by omega⟩
  have ht' : win3_2.index t (0 : Fin 2) = (i 0).val / 5000 := ht
  obtain ⟨e0, e1, e2, e3, e4, e5⟩ := idx3 t
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The output array after the region is X · W of the two input arrays as the region finds them. -/
theorem array3 (c : Dev nD) :
    (dat3 (F := Ideal) V c).arrAt 2 cfg3.N = prodLayer (V c main_v84) (V c main_v86) :=
  (dat3 V c).arrAt_eq_of_cover 2 _ (fun t _ => flushed3 V c t) cover3

end Cert.KernelIdeal.Blocks

end
-- ==== Proof.RegionOps.lean ====
/-
  Each of the four kernel regions, seen from the host program around it, acts on the core's buffers exactly as
  ONE host operation would: it replaces its output array by the matrix product of its two input arrays and
  changes nothing else (the staging buffers it uses are not among the host program's buffers).
-/
import proofs.«124555_j77206332113764_1_alg».proof.Proof.Block0
import proofs.«124555_j77206332113764_1_alg».proof.Proof.Block1
import proofs.«124555_j77206332113764_1_alg».proof.Proof.Block2
import proofs.«124555_j77206332113764_1_alg».proof.Proof.Block3

noncomputable section

namespace Cert.KernelIdeal.Blocks

open Idealize.ShloMosaic Idealize.ShloMosaic.TcCoe Idealize.SL.Sem
open Cert.KernelIdeal Cert.KernelIdeal.Gen
open Idealize.ShloMosaic.Pipeline (Dat Cfg Window)

/-- Region 0 as one host operation: main_v32 takes the product of main_arg0 and main_arg3. -/
abbrev op0 : HloOp τ sig (Elt Ideal) :=
  StableHlo.binary main_arg0 main_arg3 main_v32 ((fun l r => prodIn l r) :
    main_arg0.ty.Contents (Elt Ideal) → main_arg3.ty.Contents (Elt Ideal) → main_v32.ty.Contents (Elt Ideal))

/-- What region 0 leaves of the core's buffers is what that one operation leaves: its output array holds the
    product, its two input arrays are never written back, and no other buffer is one of its arrays. -/
theorem exit0 (Wf : Dev nD → Valuation τ sig (Elt Ideal)) (c : Dev nD) :
    Pipeline.withArrays spec0 c (Wf c) (fun w => (dat0 (F := Ideal) (fun c b => Wf c b) c).arrAt w cfg0.N)
      = op0.result (Wf c) := by
  funext b
  by_cases hb : ∃ w, Proc.devRef .tc (Pipeline.arrRef spec0 w) = b
  · obtain ⟨w, rfl⟩ := hb
    rw [Pipeline.withArrays_arr spec0 launch0.win.arr_inj c _ _ w]
    match w with
    | ⟨0, _⟩ =>
      refine (((dat0 (F := Ideal) (fun c b => Wf c b) c).arrAt_in 0 rfl _).trans (A_eq0 _ c 0)).trans ?_
      exact (StableHlo.binary_result_ne (τ := τ) main_arg0 main_arg3 main_v32 _ _ _ _ (Wf c) (r := main_arg0) (by decide)).symm
    | ⟨1, _⟩ =>
      refine (((dat0 (F := Ideal) (fun c b => Wf c b) c).arrAt_in 1 rfl _).trans (A_eq0 _ c 1)).trans ?_
      exact (StableHlo.binary_result_ne (τ := τ) main_arg0 main_arg3 main_v32 _ _ _ _ (Wf c) (r := main_arg3) (by decide)).symm
    | ⟨2, _⟩ =>
      refine (array0 (fun c b => Wf c b) c).trans ?_
      exact (StableHlo.binary_result (τ := τ) main_arg0 main_arg3 main_v32 _ _ _ _ (Wf c)).symm
  · unfold Pipeline.withArrays
    rw [dif_neg hb]
    exact (op0.result_of_not_mem (Wf c) (by
      rw [StableHlo.binary_writes, Finset.mem_singleton]
      rintro rfl
      exact hb ⟨2, rfl⟩)).symm

/-- Region 1 as one host operation: main_v35 takes the product of main_v32 and main_v34. -/
abbrev op1 : HloOp τ sig (Elt Ideal) :=
  StableHlo.binary main_v32 main_v34 main_v35 ((fun l r => prodLayer l r) :
    main_v32.ty.Contents (Elt Ideal) → main_v34.ty.Contents (Elt Ideal) → main_v35.ty.Contents (Elt Ideal))

/-- What region 1 leaves of the core's buffers is what that one operation leaves: its output array holds the
    product, its two input arrays are never written back, and no other buffer is one of its arrays. -/
theorem exit1 (Wf : Dev nD → Valuation τ sig (Elt Ideal)) (c : Dev nD) :
    Pipeline.withArrays spec1 c (Wf c) (fun w => (dat1 (F := Ideal) (fun c b => Wf c b) c).arrAt w cfg1.N)
      = op1.result (Wf c) := by
  funext b
  by_cases hb : ∃ w, Proc.devRef .tc (Pipeline.arrRef spec1 w) = b
  · obtain ⟨w, rfl⟩ := hb
    rw [Pipeline.withArrays_arr spec1 launch1.win.arr_inj c _ _ w]
    match w with
    | ⟨0, _⟩ =>
      refine (((dat1 (F := Ideal) (fun c b => Wf c b) c).arrAt_in 0 rfl _).trans (A_eq1 _ c 0)).trans ?_
      exact (StableHlo.binary_result_ne (τ := τ) main_v32 main_v34 main_v35 _ _ _ _ (Wf c) (r := main_v32) (by decide)).symm
    | ⟨1, _⟩ =>
      refine (((dat1 (F := Ideal) (fun c b => Wf c b) c).arrAt_in 1 rfl _).trans (A_eq1 _ c 1)).trans ?_
      exact (StableHlo.binary_result_ne (τ := τ) main_v32 main_v34 main_v35 _ _ _ _ (Wf c) (r := main_v34) (by decide)).symm
    | ⟨2, _⟩ =>
      refine (array1 (fun c b => Wf c b) c).trans ?_
      exact (StableHlo.binary_result (τ := τ) main_v32 main_v34 main_v35 _ _ _ _ (Wf c)).symm
  · unfold Pipeline.withArrays
    rw [dif_neg hb]
    exact (op1.result_of_not_mem (Wf c) (by
      rw [StableHlo.binary_writes, Finset.mem_singleton]
      rintro rfl
      exact hb ⟨2, rfl⟩)).symm

/-- Region 2 as one host operation: main_v61 takes the product of main_v58 and main_v60. -/
abbrev op2 : HloOp τ sig (Elt Ideal) :=
  StableHlo.binary main_v58 main_v60 main_v61 ((fun l r => prodLayer l r) :
    main_v58.ty.Contents (Elt Ideal) → main_v60.ty.Contents (Elt Ideal) → main_v61.ty.Contents (Elt Ideal))

/-- What region 2 leaves of the core's buffers is what that one operation leaves: its output array holds the
    product, its two input arrays are never written back, and no other buffer is one of its arrays. -/
theorem exit2 (Wf : Dev nD → Valuation τ sig (Elt Ideal)) (c : Dev nD) :
    Pipeline.withArrays spec2 c (Wf c) (fun w => (dat2 (F := Ideal) (fun c b => Wf c b) c).arrAt w cfg2.N)
      = op2.result (Wf c) := by
  funext b
  by_cases hb : ∃ w, Proc.devRef .tc (Pipeline.arrRef spec2 w) = b
  · obtain ⟨w, rfl⟩ := hb
    rw [Pipeline.withArrays_arr spec2 launch2.win.arr_inj c _ _ w]
    match w with
    | ⟨0, _⟩ =>
      refine (((dat2 (F := Ideal) (fun c b => Wf c b) c).arrAt_in 0 rfl _).trans (A_eq2 _ c 0)).trans ?_
      exact (StableHlo.binary_result_ne (τ := τ) main_v58 main_v60 main_v61 _ _ _ _ (Wf c) (r := main_v58) (by decide)).symm
    | ⟨1, _⟩ =>
      refine (((dat2 (F := Ideal) (fun c b => Wf c b) c).arrAt_in 1 rfl _).trans (A_eq2 _ c 1)).trans ?_
      exact (StableHlo.binary_result_ne (τ := τ) main_v58 main_v60 main_v61 _ _ _ _ (Wf c) (r := main_v60) (by decide)).symm
    | ⟨2, _⟩ =>
      refine (array2 (fun c b => Wf c b) c).trans ?_
      exact (StableHlo.binary_result (τ := τ) main_v58 main_v60 main_v61 _ _ _ _ (Wf c)).symm
  · unfold Pipeline.withArrays
    rw [dif_neg hb]
    exact (op2.result_of_not_mem (Wf c) (by
      rw [StableHlo.binary_writes, Finset.mem_singleton]
      rintro rfl
      exact hb ⟨2, rfl⟩)).symm

/-- Region 3 as one host operation: main_v87 takes the product of main_v84 and main_v86. -/
abbrev op3 : HloOp τ sig (Elt Ideal) :=
  StableHlo.binary main_v84 main_v86 main_v87 ((fun l r => prodLayer l r) :
    main_v84.ty.Contents (Elt Ideal) → main_v86.ty.Contents (Elt Ideal) → main_v87.ty.Contents (Elt Ideal))

/-- What region 3 leaves of the core's buffers is what that one operation leaves: its output array holds the
    product, its two input arrays are never written back, and no other buffer is one of its arrays. -/
theorem exit3 (Wf : Dev nD → Valuation τ sig (Elt Ideal)) (c : Dev nD) :
    Pipeline.withArrays spec3 c (Wf c) (fun w => (dat3 (F := Ideal) (fun c b => Wf c b) c).arrAt w cfg3.N)
      = op3.result (Wf c) := by
  funext b
  by_cases hb : ∃ w, Proc.devRef .tc (Pipeline.arrRef spec3 w) = b
  · obtain ⟨w, rfl⟩ := hb
    rw [Pipeline.withArrays_arr spec3 launch3.win.arr_inj c _ _ w]
    match w with
    | ⟨0, _⟩ =>
      refine (((dat3 (F := Ideal) (fun c b => Wf c b) c).arrAt_in 0 rfl _).trans (A_eq3 _ c 0)).trans ?_
      exact (StableHlo.binary_result_ne (τ := τ) main_v84 main_v86 main_v87 _ _ _ _ (Wf c) (r := main_v84) (by decide)).symm
    | ⟨1, _⟩ =>
      refine (((dat3 (F := Ideal) (fun c b => Wf c b) c).arrAt_in 1 rfl _).trans (A_eq3 _ c 1)).trans ?_
      exact (StableHlo.binary_result_ne (τ := τ) main_v84 main_v86 main_v87 _ _ _ _ (Wf c) (r := main_v86) (by decide)).symm
    | ⟨2, _⟩ =>
      refine (array3 (fun c b => Wf c b) c).trans ?_
      exact (StableHlo.binary_result (τ := τ) main_v84 main_v86 main_v87 _ _ _ _ (Wf c)).symm
  · unfold Pipeline.withArrays
    rw [dif_neg hb]
    exact (op3.result_of_not_mem (Wf c) (by
      rw [StableHlo.binary_writes, Finset.mem_singleton]
      rintro rfl
      exact hb ⟨2, rfl⟩)).symm

end Cert.KernelIdeal.Blocks

end
-- ==== Proof.LibTypedRef.lean ====
/-
  A typed reference carries the type of the tensor value it holds; contents at that type are moved to the
  buffer's own type and back along the equation between the two. Moving a value to the buffer's type and back is
  the identity, and so is moving a buffer's contents to the value's type and back — for any typed reference,
  whatever the buffer: the equation is taken apart, never computed.

  In a line of operations over typed references one operation writes its result moved to its buffer's type and
  the next reads it moved back; with these two facts the pairs cancel, and what such a line computes is the plain
  composition of the operations' functions, with a move left only where an argument enters and the result leaves.
-/
import Idealize.ShloMosaic.Lib.StableHlo

noncomputable section

namespace Cert.Lib.TypedRef

open Idealize.ShloMosaic Idealize.ShloMosaic.StableHlo

variable {sig : RefSig} {Val : EltTy → Type} {T : BufTy}

/-- A value moved to the buffer's type and back is the value. -/
theorem ofBuf_toBuf (x : TRef sig T) (v : T.Contents Val) : x.ofBuf (x.toBuf v) = v := by
  obtain ⟨r, h, _, _⟩ := x
  subst h
  rfl

/-- A buffer's contents moved to the value's type and back are the contents. -/
theorem toBuf_ofBuf (x : TRef sig T) (v : x.ref.ty.Contents Val) : x.toBuf (x.ofBuf v) = v := by
  obtain ⟨r, h, _, _⟩ := x
  subst h
  rfl

end Cert.Lib.TypedRef

end
-- ==== Proof.Boundaries.lean ====
/-
  The buffer contents at the program's last boundary, followed back to the launch: every region being one host
  operation on the core's buffers, the last boundary's contents are the launch contents after ONE line of host
  operations — the program's own stretches with a matrix product where each region stands. Evaluated at the result
  buffer, that line is the reference program's composed term of the arguments: the two programs differ only in
  how the four products are carried out.
-/
import proofs.«124555_j77206332113764_1_alg».proof.Proof.RegionOps
import proofs.«124555_j77206332113764_1_alg».proof.Proof.LibTypedRef
import proofs.«124555_j77206332113764_1_alg».proof.Proof.Gen.ReferenceIdeal.Read

noncomputable section

namespace Cert.KernelIdeal.Whole

open Idealize.ShloMosaic Idealize.ShloMosaic.TcCoe Idealize.SL.Sem Idealize.ShloMosaic.StableHlo
open Cert.KernelIdeal Cert.KernelIdeal.Gen Cert.KernelIdeal.Blocks

variable (m : (ℓ : Loc nD τ sig) → Buf (Elt Ideal) ℓ) (ρ : Dev nD → PrngReg)

theorem W4_eq (c : Dev nD) : W4 m ρ c = op0.result (W3 m ρ c) := by unfold W4; exact exit0 (W3 m ρ) c
theorem W6_eq (c : Dev nD) : W6 m ρ c = op1.result (W5 m ρ c) := by unfold W6; exact exit1 (W5 m ρ) c
theorem W8_eq (c : Dev nD) : W8 m ρ c = op2.result (W7 m ρ c) := by unfold W8; exact exit2 (W7 m ρ) c
theorem W10_eq (c : Dev nD) : W10 m ρ c = op3.result (W9 m ρ c) := by unfold W10; exact exit3 (W9 m ρ) c

/-- The last boundary's contents from the launch contents: the host stretches in order, one product per region. -/
theorem W11_eq (c : Dev nD) : W11 m ρ c
    = after hostOps4 (op3.result (after hostOps3 (op2.result (after hostOps2 (op1.result (after hostOps1 (op0.result
        (after hostOps0_2 (after hostOps0_1 (after hostOps0 (W0 m ρ c))))))))))) := by
  show after hostOps4 (W10 m ρ c) = _
  rw [W10_eq]
  show after hostOps4 (op3.result (after hostOps3 (W8 m ρ c))) = _
  rw [W8_eq]
  show after hostOps4 (op3.result (after hostOps3 (op2.result (after hostOps2 (W6 m ρ c))))) = _
  rw [W6_eq]
  show after hostOps4 (op3.result (after hostOps3 (op2.result (after hostOps2 (op1.result (after hostOps1 (W4 m ρ c))))))) = _
  rw [W4_eq]

/-- The inlined select (where deg > 0) reads its three operands and writes its result through typed references
    whose buffer types ARE the values' types: moving contents along such an equation changes nothing. -/
theorem ofBuf_cst2 (h1 h2 h3) (v : main_cst_2.ty.Contents (Elt Ideal)) :
    (TRef.of (T := ⟨S_, .f32⟩) main_cst_2 h1 h2 h3).ofBuf v = v := rfl
theorem ofBuf_v13 (h1 h2 h3) (v : main_v13.ty.Contents (Elt Ideal)) :
    (TRef.of (T := ⟨S50000, .i1⟩) main_v13 h1 h2 h3).ofBuf v = v := rfl
theorem ofBuf_v14 (h1 h2 h3) (v : main_v14.ty.Contents (Elt Ideal)) :
    (TRef.of (T := ⟨S50000, .f32⟩) main_v14 h1 h2 h3).ofBuf v = v := rfl
theorem toBuf_v15 (h1 h2 h3) (v : (⟨S50000, .f32⟩ : BufTy).Contents (Elt Ideal)) :
    (TRef.of (T := ⟨S50000, .f32⟩) main_v15 h1 h2 h3).toBuf v = v := rfl

set_option maxRecDepth 16384 in
set_option maxHeartbeats 200000000 in
/-- The result buffer at the last boundary holds the reference's function of the seven arguments. -/
theorem result_eq (c : Dev nD) :
    W11 m ρ c (Proc.devRef .tc main_v110)
      = Cert.ReferenceIdeal.Read.val_main_v110 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [W11_eq]
  after_results_simp
  simp only [Cert.Lib.TypedRef.ofBuf_toBuf, Cert.Lib.TypedRef.toBuf_ofBuf, ofBuf_cst2, ofBuf_v13, ofBuf_v14, toBuf_v15]
  rfl

end Cert.KernelIdeal.Whole

end
-- ==== Proof.lean ====
/-
  A three-layer graph convolution over 50000 nodes: x₀ = E · W_init, and for each layer
  x ← x + (segment_sum(norm ⊙ (x · W)[src], dst) + b) · att, the edge weights norm computed once from the degrees.
  The kernel program and the reference are the same host program except for the four matrix products
  (E · W_init and the three x · W), which the kernel carries out in a pipelined region each, ten blocks of 5000
  rows at a time, after a change of float format that is the identity on the extended reals.

  Each region's output array is the product of its two input arrays as whole arrays (row r of a product depends
  on row r of the left operand alone, and the ten row blocks tile the rows), so on the core's buffers a region
  acts as one host matrix product. The kernel program's result is therefore the same composed term of the seven
  arguments as the reference's, with no algebra on the values and no use of their finiteness: the sums are taken
  over the same index in the same order on both sides.
-/
import proofs.«124555_j77206332113764_1_alg».proof.Defs
import proofs.«124555_j77206332113764_1_alg».proof.Proof.Gen.Kernel
import proofs.«124555_j77206332113764_1_alg».proof.Proof.Gen.Kernel.Skeleton
import proofs.«124555_j77206332113764_1_alg».proof.Proof.Gen.Kernel.Launch
import proofs.«124555_j77206332113764_1_alg».proof.Proof.Gen.Kernel.Points
import proofs.«124555_j77206332113764_1_alg».proof.Proof.Gen.Kernel.Frame
import proofs.«124555_j77206332113764_1_alg».proof.Proof.Gen.KernelIdeal
import proofs.«124555_j77206332113764_1_alg».proof.Proof.Gen.KernelIdeal.Skeleton
import proofs.«124555_j77206332113764_1_alg».proof.Proof.Gen.KernelIdeal.Launch
import proofs.«124555_j77206332113764_1_alg».proof.Proof.Gen.KernelIdeal.Points
import proofs.«124555_j77206332113764_1_alg».proof.Proof.Gen.KernelIdeal.Frame
import proofs.«124555_j77206332113764_1_alg».proof.Proof.Gen.ReferenceIdeal
import proofs.«124555_j77206332113764_1_alg».proof.Proof.Gen.ReferenceIdeal.Run
import proofs.«124555_j77206332113764_1_alg».proof.Proof.Gen.ReferenceIdeal.Read
import proofs.«124555_j77206332113764_1_alg».proof.Proof.Gen.Pre_finite_inputs
import proofs.«124555_j77206332113764_1_alg».proof.Proof.KernelRun
import proofs.«124555_j77206332113764_1_alg».proof.Proof.Boundaries
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the result buffer at the reference's function of the arguments: the kernel program by
    its run and the last boundary's contents, the reference by its own run, the arguments agreeing. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v110 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Whole.result_eq m ρ c), (h c).2⟩)
      (Cert.KernelIdeal.Whole.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v110_eq, (hagree c).1, (hagree c).2.1, (hagree c).2.2.1, (hagree c).2.2.2.1,
      (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
